-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S100000x64 .f32) (main_arg1 : IVec S2x1600000 32) (main_arg2 : FVec F S64x64 .f32) (main_arg3 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S100000x1 : Shape := ⟨2, ![100000, 1]⟩
abbrev S1x64 : Shape := ⟨2, ![1, 64]⟩
abbrev S5000x64 : Shape := ⟨2, ![5000, 64]⟩

abbrev nBuf : Space → Nat
  | .hbm => 62
  | .vmem => 7
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S1x1600000, .i32⟩
  | .hbm, ⟨5, _⟩ => ⟨S1600000, .i32⟩
  | .hbm, ⟨6, _⟩ => ⟨S1x1600000, .i32⟩
  | .hbm, ⟨7, _⟩ => ⟨S1600000, .i32⟩
  | .hbm, ⟨8, _⟩ => ⟨S_, .f32⟩
  | .hbm, ⟨9, _⟩ => ⟨S1600000, .f32⟩
  | .hbm, ⟨10, _⟩ => ⟨S_, .f32⟩
  | .hbm, ⟨11, _⟩ => ⟨S100000, .f32⟩
  | .hbm, ⟨12, _⟩ => ⟨S1600000x1, .i32⟩
  | .hbm, ⟨13, _⟩ => ⟨S100000, .f32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000, .f32⟩
  | .hbm, ⟨23, _⟩ => ⟨S_, .i32⟩
  | .hbm, ⟨24, _⟩ => ⟨S1600000, .i32⟩
  | .hbm, ⟨25, _⟩ => ⟨S1600000, .i1⟩
  | .hbm, ⟨26, _⟩ => ⟨S_, .i32⟩
  | .hbm, ⟨27, _⟩ => ⟨S1600000, .i32⟩
  | .hbm, ⟨28, _⟩ => ⟨S1600000, .i32⟩
  | .hbm, ⟨29, _⟩ => ⟨S1600000, .i32⟩
  | .hbm, ⟨30, _⟩ => ⟨S1600000x1, .i32⟩
  | .hbm, ⟨31, _⟩ => ⟨S1600000, .f32⟩
  | .hbm, ⟨32, _⟩ => ⟨S1600000, .f32⟩
  | .hbm, ⟨33, _⟩ => ⟨S1600000, .f32⟩
  | .hbm, ⟨34, _⟩ => ⟨S_, .f32⟩
  | .hbm, ⟨35, _⟩ => ⟨S1600000, .f32⟩
  | .hbm, ⟨36, _⟩ => ⟨S1600000, .f32⟩
  | .hbm, ⟨37, _⟩ => ⟨S_, .f32⟩
  | .hbm, ⟨38, _⟩ => ⟨S1600000, .f32⟩
  | .hbm, ⟨39, _⟩ => ⟨S1600000, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x64, .f32⟩
  | .hbm, ⟨49, _⟩ => ⟨S1600000x1, .f32⟩
  | .hbm, ⟨50, _⟩ => ⟨S1600000x64, .f32⟩
  | .hbm, ⟨51, _⟩ => ⟨S1600000x64, .f32⟩
  | .hbm, ⟨52, _⟩ => ⟨S_, .f32⟩
  | .hbm, ⟨53, _⟩ => ⟨S100000x64, .f32⟩
  | .hbm, ⟨54, _⟩ => ⟨S1600000x1, .i32⟩
  | .hbm, ⟨55, _⟩ => ⟨S100000x64, .f32⟩
  | .hbm, ⟨56, _⟩ => ⟨S100000x1, .f32⟩
  | .hbm, ⟨57, _⟩ => ⟨S1x64, .f32⟩
  | .hbm, ⟨58, _⟩ => ⟨S100000x64, .f32⟩
  | .hbm, ⟨59, _⟩ => ⟨S100000x64, .f32⟩
  | .hbm, ⟨60, _⟩ => ⟨S100000x64, .f32⟩
  | .hbm, ⟨61, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S5000x64, .f32⟩
  | .local _ .vmem, ⟨6, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c_2 : Ref sig .tc := ⟨.hbm, 23, rfl⟩
abbrev main_v15 : Ref sig .tc := ⟨.hbm, 24, rfl⟩
abbrev main_v16 : Ref sig .tc := ⟨.hbm, 25, rfl⟩
abbrev main_c_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_c_6 : Ref sig .tc := ⟨.hbm, 40, rfl⟩
abbrev main_v28 : Ref sig .tc := ⟨.hbm, 41, rfl⟩
abbrev main_v29 : Ref sig .tc := ⟨.hbm, 42, rfl⟩
abbrev main_c_7 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_8 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S64_S1x64_1 : S64.BroadcastsInDim S1x64 (![1] : Fin 1 → Fin S1x64.rank)
  bcast_S100000x1_S100000x64_0_1 : S100000x1.BroadcastsInDim S100000x64 (![0, 1] : Fin 2 → Fin S100000x64.rank)
  bcast_S1x64_S100000x64_0_1 : S1x64.BroadcastsInDim S100000x64 (![0, 1] : Fin 2 → Fin S100000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  transposes_S64x64_p1_0_S64x64 : S64x64.Transposes [1, 0] S64x64
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v40) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v45) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v46) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S1x64 : Shape := ⟨2, ![1, 64]⟩

abbrev nBuf : Space → Nat
  | .hbm => 61
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S1x1600000, .i32⟩
  | .hbm, ⟨5, _⟩ => ⟨S1600000, .i32⟩
  | .hbm, ⟨6, _⟩ => ⟨S1x1600000, .i32⟩
  | .hbm, ⟨7, _⟩ => ⟨S1600000, .i32⟩
  | .hbm, ⟨8, _⟩ => ⟨S_, .f32⟩
  | .hbm, ⟨9, _⟩ => ⟨S1600000, .f32⟩
  | .hbm, ⟨10, _⟩ => ⟨S_, .f32⟩
  | .hbm, ⟨11, _⟩ => ⟨S100000, .f32⟩
  | .hbm, ⟨12, _⟩ => ⟨S1600000x1, .i32⟩
  | .hbm, ⟨13, _⟩ => ⟨S100000, .f32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000, .f32⟩
  | .hbm, ⟨23, _⟩ => ⟨S_, .i32⟩
  | .hbm, ⟨24, _⟩ => ⟨S1600000, .i32⟩
  | .hbm, ⟨25, _⟩ => ⟨S1600000, .i1⟩
  | .hbm, ⟨26, _⟩ => ⟨S_, .i32⟩
  | .hbm, ⟨27, _⟩ => ⟨S1600000, .i32⟩
  | .hbm, ⟨28, _⟩ => ⟨S1600000, .i32⟩
  | .hbm, ⟨29, _⟩ => ⟨S1600000, .i32⟩
  | .hbm, ⟨30, _⟩ => ⟨S1600000x1, .i32⟩
  | .hbm, ⟨31, _⟩ => ⟨S1600000, .f32⟩
  | .hbm, ⟨32, _⟩ => ⟨S1600000, .f32⟩
  | .hbm, ⟨33, _⟩ => ⟨S1600000, .f32⟩
  | .hbm, ⟨34, _⟩ => ⟨S_, .f32⟩
  | .hbm, ⟨35, _⟩ => ⟨S1600000, .f32⟩
  | .hbm, ⟨36, _⟩ => ⟨S1600000, .f32⟩
  | .hbm, ⟨37, _⟩ => ⟨S_, .f32⟩
  | .hbm, ⟨38, _⟩ => ⟨S1600000, .f32⟩
  | .hbm, ⟨39, _⟩ => ⟨S1600000, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x64, .f32⟩
  | .hbm, ⟨49, _⟩ => ⟨S1600000x1, .f32⟩
  | .hbm, ⟨50, _⟩ => ⟨S1600000x64, .f32⟩
  | .hbm, ⟨51, _⟩ => ⟨S1600000x64, .f32⟩
  | .hbm, ⟨52, _⟩ => ⟨S64x64, .f32⟩
  | .hbm, ⟨53, _⟩ => ⟨S1600000x64, .f32⟩
  | .hbm, ⟨54, _⟩ => ⟨S1x64, .f32⟩
  | .hbm, ⟨55, _⟩ => ⟨S1600000x64, .f32⟩
  | .hbm, ⟨56, _⟩ => ⟨S1600000x64, .f32⟩
  | .hbm, ⟨57, _⟩ => ⟨S_, .f32⟩
  | .hbm, ⟨58, _⟩ => ⟨S100000x64, .f32⟩
  | .hbm, ⟨59, _⟩ => ⟨S1600000x1, .i32⟩
  | .hbm, ⟨60, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c_2 : Ref sig .tc := ⟨.hbm, 23, rfl⟩
abbrev main_v15 : Ref sig .tc := ⟨.hbm, 24, rfl⟩
abbrev main_v16 : Ref sig .tc := ⟨.hbm, 25, rfl⟩
abbrev main_c_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_c_6 : Ref sig .tc := ⟨.hbm, 40, rfl⟩
abbrev main_v28 : Ref sig .tc := ⟨.hbm, 41, rfl⟩
abbrev main_v29 : Ref sig .tc := ⟨.hbm, 42, rfl⟩
abbrev main_c_7 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_8 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  transposes_S64x64_S64x64_1_0 : S64x64.Transposes [1, 0] S64x64
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  bcast_S_S100000x64 : S_.BroadcastsInDim S100000x64 (![] : Fin 0 → Fin S100000x64.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  dot_S1600000x64_S64x64_S1600000x64_1_0_0_1_n_n_wf : DotDims.WF S1600000x64 S64x64 S1600000x64 [1] [0] [0] [1] [] []
  scatter_S100000x64_S1600000x1_S1600000x64_1_0_0_1_wf : ScatterDims.WF S100000x64 S1600000x1 S1600000x64 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S1600000x64_S64x64_S1600000x64_1_0_0_1_n_n : DotDims S1600000x64 S64x64 S1600000x64 where
  lhsContracting := [1]
  rhsContracting := [0]
  lhsNonContracting := [0]
  rhsNonContracting := [1]
  lhsBatch := []
  rhsBatch := []
  wf := dot_S1600000x64_S64x64_S1600000x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.LibRealValued.lean ====
/-
  Real-valued extended reals. A quantity is real-valued when it is the image of a real number, that is,
  neither of the two infinities. The arithmetic of the extended reals restricted to real-valued
  quantities is the arithmetic of the real numbers, and the exponential and the division by a nonzero
  real keep a real-valued argument real-valued.
-/
import Mathlib
import Idealize.ShloMosaic.PureOps.Ideal
import Idealize.ShloMosaic.PureOps.Ideal.Laws

namespace Cert.RealValued

open Idealize.ShloMosaic

/-- An extended real is real-valued when it is (the image of) a real number. -/
def IsReal (x : EReal) : Prop := ∃ r : ℝ, x = (r : EReal)

/-- The image of a real number is real-valued. -/
theorem IsReal.coe (r : ℝ) : IsReal (r : EReal) := ⟨r, rfl⟩

/-- Zero is real-valued. -/
theorem IsReal.zero : IsReal (0 : EReal) := ⟨0, EReal.coe_zero.symm⟩

/-- One is real-valued. -/
theorem IsReal.one : IsReal (1 : EReal) := ⟨1, EReal.coe_one.symm⟩

/-- A real-valued quantity is neither infinity. -/
theorem IsReal.ne_top {x : EReal} (hx : IsReal x) : x ≠ ⊤ := by
  obtain ⟨a, rfl⟩ := hx; exact EReal.coe_ne_top a

/-- A real-valued quantity is neither infinity. -/
theorem IsReal.ne_bot {x : EReal} (hx : IsReal x) : x ≠ ⊥ := by
  obtain ⟨a, rfl⟩ := hx; exact EReal.coe_ne_bot a

/-- The sum of two real-valued quantities is real-valued. -/
theorem IsReal.add {x y : EReal} (hx : IsReal x) (hy : IsReal y) : IsReal (x + y) := by
  obtain ⟨a, rfl⟩ := hx; obtain ⟨b, rfl⟩ := hy
  exact ⟨a + b, (EReal.coe_add a b).symm⟩

/-- The difference of two real-valued quantities is real-valued. -/
theorem IsReal.sub {x y : EReal} (hx : IsReal x) (hy : IsReal y) : IsReal (x - y) := by
  obtain ⟨a, rfl⟩ := hx; obtain ⟨b, rfl⟩ := hy
  exact ⟨a - b, (EReal.coe_sub a b).symm⟩

/-- The product of two real-valued quantities is real-valued. -/
theorem IsReal.mul {x y : EReal} (hx : IsReal x) (hy : IsReal y) : IsReal (x * y) := by
  obtain ⟨a, rfl⟩ := hx; obtain ⟨b, rfl⟩ := hy
  exact ⟨a * b, (EReal.coe_mul a b).symm⟩

/-- The negation of a real-valued quantity is real-valued. -/
theorem IsReal.neg {x : EReal} (hx : IsReal x) : IsReal (-x) := by
  obtain ⟨a, rfl⟩ := hx
  exact ⟨-a, (EReal.coe_neg a).symm⟩

/-- The maximum of two real numbers, taken in the extended reals, is the image of their maximum. -/
theorem coe_max (a b : ℝ) : max (a : EReal) (b : EReal) = ((max a b : ℝ) : EReal) := by
  rcases le_total a b with h | h
  · rw [max_eq_right h, max_eq_right (EReal.coe_le_coe_iff.2 h)]
  · rw [max_eq_left h, max_eq_left (EReal.coe_le_coe_iff.2 h)]

/-- The maximum of two real-valued quantities is real-valued. -/
theorem IsReal.max {x y : EReal} (hx : IsReal x) (hy : IsReal y) : IsReal (max x y) := by
  obtain ⟨a, rfl⟩ := hx; obtain ⟨b, rfl⟩ := hy
  exact ⟨Max.max a b, coe_max a b⟩

/-- A finite sum of real-valued quantities is real-valued. -/
theorem IsReal.sum {ι : Type*} (s : Finset ι) (f : ι → EReal) (h : ∀ i ∈ s, IsReal (f i)) :
    IsReal (∑ i ∈ s, f i) := by
  classical
  induction s using Finset.induction_on with
  | empty => simpa using IsReal.zero
  | insert a s ha ih =>
    rw [Finset.sum_insert ha]
    exact (h a (Finset.mem_insert_self a s)).add
      (ih fun i hi => h i (Finset.mem_insert_of_mem hi))

/-- The coercion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- The exponential of a real-valued quantity is a positive real number. -/
theorem exp_coe_pos (r : ℝ) : ∃ e : ℝ, 0 < e ∧ Ideal.exp (r : EReal) = (e : EReal) :=
  ⟨Real.exp r, Real.exp_pos r, Ideal.exp_coe r⟩

/-- The exponential of a real-valued quantity is real-valued. -/
theorem isReal_exp {x : EReal} (h : IsReal x) : IsReal (Ideal.exp x) := by
  obtain ⟨a, rfl⟩ := h
  exact ⟨Real.exp a, Ideal.exp_coe a⟩

/-- A real-valued quantity divided by a nonzero real number is real-valued. -/
theorem isReal_div_coe {x : EReal} (h : IsReal x) {y : ℝ} (hy : y ≠ 0) :
    IsReal (Ideal.div x (y : EReal)) := by
  rw [Ideal.div_coe hy x]
  exact h.mul (IsReal.coe _)

end Cert.RealValued
-- ==== Proof.FiniteArgs.lean ====
/-
  What the precondition says at the ideal values: each float argument — the node features, the weight matrix, the bias —
  holds only real numbers. The precondition is the conjunction of three `all` reductions of the comparisons |x| < +inf,
  one per float argument; an extended real whose absolute value max(x, -x) is below +inf is neither infinity.
-/
import proofs.«130056_j52046413693115_2_alg».proof.Pre_finite_inputs
import proofs.«130056_j52046413693115_2_alg».proof.Proof.LibRealValued
import Idealize.ShloMosaic.Lib.ReduceAll
import Idealize.ShloMosaic.Lib.ValueIdx
import Idealize.ShloMosaic.PureOps.Ideal.Laws

noncomputable section

namespace Cert.FiniteArgs

open Idealize.ShloMosaic Idealize.ShloMosaic.ValueIdx Cert.RealValued Cert.Pre_finite_inputs

/-- An extended real whose absolute value is below +inf is a real number. -/
theorem isReal_of_abs_lt_top {x : EReal} (h : max x (-x) < ⊤) : IsReal x := by
  induction x using EReal.rec with
  | bot => simp at h
  | coe r => exact ⟨r, rfl⟩
  | top => simp at h

/-- The f32 pattern of +inf is the top of the extended reals. -/
theorem ofBits_inf_f32 : Ideal.ofBits .f32 0x7F800000#32 = ⊤ := by simp [Ideal.ofBits, Ideal.ieee]

/-- One entry of the comparison |x| < +inf being true says the entry of x is real. -/
theorem isReal_of_entry {s : Shape} (x : FVec Ideal s .f32) (hb : S_.BroadcastsInDim s (![] : Fin 0 → Fin s.rank)) (i : s.Idx)
    (h : cmpf .olt (Host.absf x) (broadcastInDim s ![] hb (constant (F := Ideal) S_ .f32 0x7F800000#32)) i = 1#1) :
    IsReal (x i) := by
  have h' : BitVec.ofBool (decide (max (x i) (-(x i)) < Ideal.ofBits .f32 0x7F800000#32)) = 1#1 := h
  rw [ofBits_inf_f32] at h'
  cases hd : decide (max (x i) (-(x i)) < (⊤ : EReal)) with
  | false => rw [hd] at h'; exact absurd h' (by decide)
  | true => exact isReal_of_abs_lt_top (of_decide_eq_true hd)

instance : Subsingleton S_.Idx := ⟨fun a b => funext fun d => d.elim0⟩

/-- Under the precondition the three float arguments hold real numbers only. -/
theorem args_real [Facts] (x0 : FVec Ideal S100000x64 .f32) (x1 : IVec S2x1600000 32) (x2 : FVec Ideal S64x64 .f32)
    (x3 : FVec Ideal S64 .f32) (h : fn (F := Ideal) x0 x1 x2 x3 = fun _ => 1#1) :
    (∀ i, IsReal (x0 i)) ∧ (∀ i, IsReal (x2 i)) ∧ (∀ i, IsReal (x3 i)) := by
  have h0 := congrFun h ix0
  dsimp only [fn] at h0
  obtain ⟨h01, h3⟩ := IntOp.andi_eq_one.mp h0
  obtain ⟨h1, h2⟩ := IntOp.andi_eq_one.mp h01
  refine ⟨fun i => ?_, fun i => ?_, fun i => ?_⟩
  · exact isReal_of_entry x0 _ i (Host.reduce_andi_all _ _ _ _ _ h1 i)
  · exact isReal_of_entry x2 _ i (Host.reduce_andi_all _ _ _ _ _ h2 i)
  · exact isReal_of_entry x3 _ i (Host.reduce_andi_all _ _ _ _ _ h3 i)

end Cert.FiniteArgs

end
-- ==== Proof.LibRowScatter.lean ====
/-
  The host's accumulating scatter of whole rows, read at an index, at the ideal values.

  What `segment_sum(data, ids, num_segments = N)` lowers to: a `stablehlo.scatter` with an `add` body of an E×C array
  of updates into an N×C operand, the scatter indices an E×1 column — update row `e` is added into operand row `ids[e]`,
  the index read as a signed integer and NOT clamped: an update whose index is negative or at least N is dropped. For a
  vector of E updates into a vector of N cells it is the same with the column axis absent.

  At the ideal values such a scatter is an exact sum, so entry (n, c) of the result is the operand's entry plus the sum,
  over the update rows e whose index is n, of the updates' entries (e, c): the set of contributing rows depends on n
  only, not on the column. That is the content of this file, `rows_apply` and `cells_apply`.
-/
import Idealize.ShloMosaic.PureOps.Ideal.Laws
import Idealize.ShloMosaic.Lib.ValueIdx

noncomputable section

open scoped BigOperators

namespace Idealize.ShloMosaic.RowScatter

open Idealize.ShloMosaic Idealize.ShloMosaic.ValueIdx

variable {N E C w : Nat}

/-- The dimension numbers of a scatter of E rows of width C into an N×C operand, the indices an E×1 column. -/
abbrev rowsDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The dimension numbers of a scatter of E scalars into a vector of N cells, the indices an E×1 column. -/
abbrev cellsDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- The row update `e` is sent to: its scatter index, read as a signed integer. -/
def dest (idx : IVec ⟨2, ![E, 1]⟩ w) (e : Fin E) : Int := (idx (ix2 e (0 : Fin 1))).toInt

/-! ## Rows -/

section Rows
variable (wf : ScatterDims.WF ⟨2, ![N, C]⟩ ⟨2, ![E, 1]⟩ ⟨2, ![E, C]⟩ [1] [0] [0] 1)

theorem rows_start0 (j : (⟨2, ![E, C]⟩ : Shape).Idx) (idx : IVec ⟨2, ![E, 1]⟩ w) :
    (rowsDims N E C wf).start j idx 0 = dest idx (j 0) := by
  unfold ScatterDims.start dest
  rw [dif_pos (show (0 : Fin 2) ∈ (rowsDims N E C wf).scatterDimsToOperandDims from List.mem_singleton.mpr rfl)]
  congr 2
  funext b; refine Fin.ext ?_
  match b with
  | ⟨0, _⟩ => rfl
  | ⟨1, _⟩ => rfl

theorem rows_start1 (j : (⟨2, ![E, C]⟩ : Shape).Idx) (idx : IVec ⟨2, ![E, 1]⟩ w) :
    (rowsDims N E C wf).start j idx 1 = 0 := by
  unfold ScatterDims.start
  rw [dif_neg (fun h => absurd (congrArg Fin.val (List.mem_singleton.mp h)) Nat.one_ne_zero)]

theorem rows_window0 (j : (⟨2, ![E, C]⟩ : Shape).Idx) : (rowsDims N E C wf).window j 0 = 0 := by
  unfold ScatterDims.window
  rw [dif_neg (fun h => by simp [ScatterDims.sKept, Shape.kept] at h)]

theorem rows_window1 (j : (⟨2, ![E, C]⟩ : Shape).Idx) : (rowsDims N E C wf).window j 1 = (j 1).val := by
  unfold ScatterDims.window
  rw [dif_pos (by simp [ScatterDims.sKept, Shape.kept])]
  rfl

/-- Update (e, c') lands on operand entry (n, c) exactly when the index of row e is n and the columns agree. -/
theorem rows_lands (idx : IVec ⟨2, ![E, 1]⟩ w) (e : Fin E) (c' : Fin C) (n : Fin N) (c : Fin C) :
    (rowsDims N E C wf).resultIdx? (ix2 e c') idx = some (ix2 n c) ↔ dest idx e = (n.val : Int) ∧ c' = c := by
  unfold ScatterDims.resultIdx?
  have s0 : (rowsDims N E C wf).start (ix2 e c') idx 0 = dest idx e := rows_start0 wf (ix2 e c') idx
  have s1 : (rowsDims N E C wf).start (ix2 e c') idx 1 = 0 := rows_start1 wf (ix2 e c') idx
  have w0 : (rowsDims N E C wf).window (ix2 e c') 0 = 0 := rows_window0 wf (ix2 e c')
  have w1 : (rowsDims N E C wf).window (ix2 e c') 1 = c'.val := rows_window1 wf (ix2 e c')
  split
  · rename_i h
    rw [Option.some.injEq]
    constructor
    · intro hf
      have h0 := congrArg (fun f => (f 0).val) hf
      have h1 := congrArg (fun f => (f 1).val) hf
      simp only [s0, s1, w0, w1] at h0 h1
      have hn := (h 0).1
      rw [s0, w0] at hn
      refine ⟨?_, Fin.ext ?_⟩
      · show dest idx e = (n.val : Int)
        have : ((dest idx e + ((0 : Nat) : Int)).toNat : Nat) = n.val := h0
        omega
      · have : ((0 : Int) + ((c'.val : Nat) : Int)).toNat = c.val := h1
        omega
    · rintro ⟨hd, rfl⟩
      funext a; refine Fin.ext ?_
      match a with
      | ⟨0, _⟩ =>
        show ((rowsDims N E C wf).start (ix2 e c') idx 0 + ((rowsDims N E C wf).window (ix2 e c') 0 : Nat)).toNat = n.val
        rw [s0, w0, hd]; omega
      | ⟨1, _⟩ =>
        show ((rowsDims N E C wf).start (ix2 e c') idx 1 + ((rowsDims N E C wf).window (ix2 e c') 1 : Nat)).toNat = c'.val
        rw [s1, w1]; omega
  · rename_i h
    constructor
    · intro hf; exact absurd hf (by simp)
    · rintro ⟨hd, rfl⟩
      exfalso; apply h
      intro a
      match a with
      | ⟨0, _⟩ =>
        show 0 ≤ (rowsDims N E C wf).start (ix2 e c') idx 0 + ((rowsDims N E C wf).window (ix2 e c') 0 : Nat)
          ∧ (rowsDims N E C wf).start (ix2 e c') idx 0 + ((rowsDims N E C wf).window (ix2 e c') 0 : Nat) < (N : Int)
        rw [s0, w0, hd]; have := n.isLt; omega
      | ⟨1, _⟩ =>
        show 0 ≤ (rowsDims N E C wf).start (ix2 e c') idx 1 + ((rowsDims N E C wf).window (ix2 e c') 1 : Nat)
          ∧ (rowsDims N E C wf).start (ix2 e c') idx 1 + ((rowsDims N E C wf).window (ix2 e c') 1 : Nat) < (C : Int)
        rw [s1, w1]; have := c'.isLt; omega

/-- THE ROW SCATTER READ AT (n, c): the operand's entry plus the sum over the update rows sent to row n of their
    entries in column c. -/
theorem rows_apply {φ : FTy} (x : FVec Ideal ⟨2, ![N, C]⟩ φ) (idx : IVec ⟨2, ![E, 1]⟩ w) (upd : FVec Ideal ⟨2, ![E, C]⟩ φ)
    (n : Fin N) (c : Fin C) :
    Host.scatterAdd (rowsDims N E C wf) x idx upd (ix2 n c)
      = x (ix2 n c) + ∑ e ∈ Finset.univ.filter (fun e : Fin E => dest idx e = (n.val : Int)), upd (ix2 e c) := by
  show Ideal.hostScatterAdd (rowsDims N E C wf) x idx upd (ix2 n c) = _
  unfold Ideal.hostScatterAdd
  congr 1
  rw [Finset.sum_filter, Finset.sum_filter, sum_idx2]
  refine Finset.sum_congr rfl fun e _ => ?_
  by_cases hd : dest idx e = (n.val : Int)
  · rw [if_pos hd, Finset.sum_eq_single c]
    · rw [if_pos ((rows_lands wf idx e c n c).mpr ⟨hd, rfl⟩)]
    · intro c' _ hne
      rw [if_neg (fun h => hne ((rows_lands wf idx e c' n c).mp h).2)]
    · intro h; exact absurd (Finset.mem_univ c) h
  · rw [if_neg hd]
    exact Finset.sum_eq_zero fun c' _ => if_neg (fun h => hd ((rows_lands wf idx e c' n c).mp h).1)

end Rows

/-! ## Cells -/

section Cells
variable (wf : ScatterDims.WF ⟨1, ![N]⟩ ⟨2, ![E, 1]⟩ ⟨1, ![E]⟩ [] [0] [0] 1)

theorem cells_start0 (j : (⟨1, ![E]⟩ : Shape).Idx) (idx : IVec ⟨2, ![E, 1]⟩ w) :
    (cellsDims N E wf).start j idx 0 = dest idx (j 0) := by
  unfold ScatterDims.start dest
  rw [dif_pos (show (0 : Fin 1) ∈ (cellsDims N E wf).scatterDimsToOperandDims from List.mem_singleton.mpr rfl)]
  congr 2
  funext b; refine Fin.ext ?_
  match b with
  | ⟨0, _⟩ => rfl
  | ⟨1, _⟩ => rfl

theorem cells_window0 (j : (⟨1, ![E]⟩ : Shape).Idx) : (cellsDims N E wf).window j 0 = 0 := by
  unfold ScatterDims.window
  rw [dif_neg (fun h => by simp [ScatterDims.sKept, Shape.kept] at h)]

/-- Update e lands on cell n exactly when its index is n. -/
theorem cells_lands (idx : IVec ⟨2, ![E, 1]⟩ w) (e : Fin E) (n : Fin N) :
    (cellsDims N E wf).resultIdx? (ix1 e) idx = some (ix1 n) ↔ dest idx e = (n.val : Int) := by
  unfold ScatterDims.resultIdx?
  have s0 : (cellsDims N E wf).start (ix1 e) idx 0 = dest idx e := cells_start0 wf (ix1 e) idx
  have w0 : (cellsDims N E wf).window (ix1 e) 0 = 0 := cells_window0 wf (ix1 e)
  split
  · rename_i h
    rw [Option.some.injEq]
    constructor
    · intro hf
      have h0 := congrArg (fun f => (f 0).val) hf
      simp only [s0, w0] at h0
      have hn := (h 0).1
      rw [s0, w0] at hn
      have : ((dest idx e + ((0 : Nat) : Int)).toNat : Nat) = n.val := h0
      omega
    · intro hd
      funext a; refine Fin.ext ?_
      match a with
      | ⟨0, _⟩ =>
        show ((cellsDims N E wf).start (ix1 e) idx 0 + ((cellsDims N E wf).window (ix1 e) 0 : Nat)).toNat = n.val
        rw [s0, w0, hd]; omega
  · rename_i h
    constructor
    · intro hf; exact absurd hf (by simp)
    · intro hd
      exfalso; apply h
      intro a
      match a with
      | ⟨0, _⟩ =>
        show 0 ≤ (cellsDims N E wf).start (ix1 e) idx 0 + ((cellsDims N E wf).window (ix1 e) 0 : Nat)
          ∧ (cellsDims N E wf).start (ix1 e) idx 0 + ((cellsDims N E wf).window (ix1 e) 0 : Nat) < (N : Int)
        rw [s0, w0, hd]; have := n.isLt; omega

/-- A sum over a rank-1 index set is the sum over its coordinate. -/
theorem sum_idx1 {M : Type*} [AddCommMonoid M] {n : Nat} (f : (⟨1, ![n]⟩ : Shape).Idx → M) :
    ∑ i, f i = ∑ a : Fin n, f (ix1 a) := by
  let eqv : (⟨1, ![n]⟩ : Shape).Idx ≃ Fin n :=
    ⟨fun i => i 0, fun a => ix1 a, fun i => (eq_ix1 i).symm, fun _ => rfl⟩
  rw [← Equiv.sum_comp eqv.symm f]
  rfl

/-- THE CELL SCATTER READ AT n: the operand's entry plus the sum of the updates sent to cell n. -/
theorem cells_apply {φ : FTy} (x : FVec Ideal ⟨1, ![N]⟩ φ) (idx : IVec ⟨2, ![E, 1]⟩ w) (upd : FVec Ideal ⟨1, ![E]⟩ φ)
    (n : Fin N) :
    Host.scatterAdd (cellsDims N E wf) x idx upd (ix1 n)
      = x (ix1 n) + ∑ e ∈ Finset.univ.filter (fun e : Fin E => dest idx e = (n.val : Int)), upd (ix1 e) := by
  show Ideal.hostScatterAdd (cellsDims N E wf) x idx upd (ix1 n) = _
  unfold Ideal.hostScatterAdd
  congr 1
  rw [Finset.sum_filter, Finset.sum_filter, sum_idx1]
  refine Finset.sum_congr rfl fun e _ => ?_
  by_cases hd : dest idx e = (n.val : Int)
  · rw [if_pos hd, if_pos ((cells_lands wf idx e n).mpr hd)]
  · rw [if_neg hd, if_neg (fun h => hd ((cells_lands wf idx e n).mp h))]

end Cells

end Idealize.ShloMosaic.RowScatter

end
-- ==== Proof.Messages.lean ====
/-
  Message passing with symmetric normalisation, as one function of the four arguments.

  Edge e goes from node src(e) to node tgt(e). With deg(n) the number of edges whose target is n, edge e carries the
  source node's feature row scaled by 1 / (sqrt(deg(tgt e) · deg(src e)) + eps): the scaled feature A(e, k). The
  reference pushes every edge's row through the linear layer, A(e, ·)·Wᵀ + b, and sums the results over the edges of
  each target node n. The kernel sums the scaled rows over the edges of each target first, agg(n, k) = Σ_e A(e, k),
  multiplies once by Wᵀ, and adds deg(n)·b. The two agree because the linear layer commutes with a finite sum of real
  numbers:  Σ_e (Σ_k A(e,k)·w(k) + β)  =  Σ_k (Σ_e A(e,k))·w(k) + (Σ_e 1)·β.
  On the extended reals the law needs every entry real (distributivity fails at the infinities): the features, the
  weights and the bias are real by the precondition, a degree is a finite count, and the normaliser divides 1 by a
  positive real, so every scaled feature is real.
-/
import proofs.«130056_j52046413693115_2_alg».proof.Proof.Gen.ReferenceIdeal.Read
import proofs.«130056_j52046413693115_2_alg».proof.Proof.LibRowScatter
import proofs.«130056_j52046413693115_2_alg».proof.Proof.LibRealValued
import Idealize.ShloMosaic.Lib.IdealHost

noncomputable section

open scoped BigOperators

namespace Cert.Messages

open Idealize.ShloMosaic Idealize.ShloMosaic.ValueIdx Idealize.ShloMosaic.RowScatter Cert.RealValued
open Cert.ReferenceIdeal Cert.ReferenceIdeal.Gen Cert.ReferenceIdeal.Read

/-! ## The law -/

/-- In the reals: a linear layer applied edge by edge and summed is the layer applied to the summed rows, the bias
    counted once per edge. -/
theorem real_law {ι : Type*} (S : Finset ι) {K : ℕ} (a : ι → Fin K → ℝ) (w : Fin K → ℝ) (β : ℝ) :
    ∑ e ∈ S, ((∑ k, a e k * w k) + β) = (∑ k, (∑ e ∈ S, a e k) * w k) + (∑ _e ∈ S, (1 : ℝ)) * β := by
  rw [Finset.sum_add_distrib, Finset.sum_comm]
  congr 1
  · exact Finset.sum_congr rfl fun k _ => (Finset.sum_mul _ _ _).symm
  · rw [Finset.sum_mul]; simp only [one_mul]

/-- The same on extended reals whose entries are all real. -/
theorem segment_law {ι : Type*} (S : Finset ι) {K : ℕ} (a : ι → Fin K → EReal) (w : Fin K → EReal) (β : EReal)
    (ha : ∀ e k, IsReal (a e k)) (hw : ∀ k, IsReal (w k)) (hβ : IsReal β) :
    ∑ e ∈ S, ((∑ k, a e k * w k) + β) = (∑ k, (∑ e ∈ S, a e k) * w k) + (∑ _e ∈ S, (1 : EReal)) * β := by
  choose a' ha' using ha
  choose w' hw' using hw
  obtain ⟨β', rfl⟩ := hβ
  have h1 : (1 : EReal) = ((1 : ℝ) : EReal) := EReal.coe_one.symm
  simp only [ha', hw', h1, ← EReal.coe_mul, ← coe_sum, ← EReal.coe_add]
  rw [real_law]

/-- The normaliser's epsilon, the f32 nearest 1e-8, is a positive real. -/
theorem eps_pos : ∃ r : ℝ, 0 < r ∧ Ideal.ofBits .f32 0x322BCC77#32 = (r : EReal) := by
  refine ⟨11258999 * (2 : ℝ) ^ (-50 : ℤ), by positivity, ?_⟩
  simp [Ideal.ofBits, Ideal.ieee, -EReal.coe_mul]

/-! ## The pieces, as the reference's own stages -/

abbrev Feat := (⟨S100000x64, .f32⟩ : BufTy).Contents (Elt Ideal)
abbrev Edges := (⟨S2x1600000, .i32⟩ : BufTy).Contents (Elt Ideal)
abbrev Weights := (⟨S64x64, .f32⟩ : BufTy).Contents (Elt Ideal)
abbrev Bias := (⟨S64, .f32⟩ : BufTy).Contents (Elt Ideal)

/-- The edges' targets, as the column of scatter indices. -/
def tgtCol (x1 : Edges) : IVec S1600000x1 32 := val_main_v44 (F := Ideal) x1
/-- The scaled feature rows A(e, k), one per edge. -/
def scaled (x0 : Feat) (x1 : Edges) : FVec Ideal S1600000x64 .f32 := val_main_v37 (F := Ideal) x0 x1
/-- The degrees: the number of edges into each node, as a float. -/
def deg (x1 : Edges) : FVec Ideal S100000 .f32 := val_main_v7 (F := Ideal) x1
/-- The edges whose target is node n. -/
def edgesInto (x1 : Edges) (n : Fin 100000) : Finset (Fin 1600000) :=
  Finset.univ.filter fun e => dest (tgtCol x1) e = (n.val : Int)
/-- The scaled rows summed over the edges into each node. -/
def agg (x0 : Feat) (x1 : Edges) : FVec Ideal S100000x64 .f32 :=
  Host.scatterAdd (F := Ideal) (φ := .f32) (rowsDims 100000 1600000 64 scatter_S100000x64_S1600000x1_S1600000x64_1_0_0_1_wf)
    (val_main_v43 (F := Ideal)) (tgtCol x1) (scaled x0 x1)
/-- Entry (n, o) of the result: the sum over the edges into n of the linear layer's output o on the edge's scaled row. -/
def outAt (x0 : Feat) (x1 : Edges) (x2 : Weights) (x3 : Bias) (n : Fin 100000) (o : Fin 64) : EReal :=
  ∑ e ∈ edgesInto x1 n, ((∑ k : Fin 64, scaled x0 x1 (ix2 e k) * x2 (ix2 o k)) + x3 (ix1 o))

theorem zero_word : FloatOps.ofBits (F := Ideal) .f32 0x00000000#32 = 0 := Ideal.ofBits_zero_f32

/-- A degree is the count of the edges into the node. -/
theorem deg_apply (x1 : Edges) (n : Fin 100000) : deg x1 (ix1 n) = ∑ _e ∈ edgesInto x1 n, (1 : EReal) := by
  have hs : deg x1 (ix1 n) = Host.scatterAdd (F := Ideal) (φ := .f32) (cellsDims 100000 1600000 scatter_S100000_S1600000x1_S1600000_n_0_0_1_wf)
      (val_main_v5 (F := Ideal)) (tgtCol x1) (val_main_v4 (F := Ideal)) (ix1 n) := rfl
  rw [hs, cells_apply, val_main_v5_apply, val_main_cst_0_apply, zero_word, zero_add]
  refine Finset.sum_congr rfl fun e _ => ?_
  rw [val_main_v4_apply, val_main_cst_apply]
  exact Ideal.ofBits_one_f32

/-- An aggregated entry is the sum of the scaled entries over the edges into the node. -/
theorem agg_apply (x0 : Feat) (x1 : Edges) (n : Fin 100000) (k : Fin 64) :
    agg x0 x1 (ix2 n k) = ∑ e ∈ edgesInto x1 n, scaled x0 x1 (ix2 e k) := by
  unfold agg
  rw [rows_apply, val_main_v43_apply, val_main_cst_8_apply, zero_word, zero_add]
  rfl

/-- The reference's result at (n, o). -/
theorem reference_apply (x0 : Feat) (x1 : Edges) (x2 : Weights) (x3 : Bias) (n : Fin 100000) (o : Fin 64) :
    val_main_v45 (F := Ideal) x0 x1 x2 x3 (ix2 n o) = outAt x0 x1 x2 x3 n o := by
  have hs : val_main_v45 (F := Ideal) x0 x1 x2 x3 (ix2 n o)
      = Host.scatterAdd (F := Ideal) (φ := .f32) (rowsDims 100000 1600000 64 scatter_S100000x64_S1600000x1_S1600000x64_1_0_0_1_wf)
          (val_main_v43 (F := Ideal)) (tgtCol x1) (val_main_v42 (F := Ideal) x0 x1 x2 x3) (ix2 n o) := rfl
  rw [hs, rows_apply, val_main_v43_apply, val_main_cst_8_apply, zero_word, zero_add]
  refine Finset.sum_congr rfl fun e _ => ?_
  rw [val_main_v42_apply, val_main_v39_apply, val_main_v41_apply, val_main_v40_apply]
  show (∑ k : Fin 64, val_main_v37 (F := Ideal) x0 x1 (lidx_main_v39 (ix2 e o) k)
      * val_main_v38 (F := Ideal) x2 (ridx_main_v39 (ix2 e o) k)) + x3 _ = _
  refine congrArg₂ (· + ·) ?_ ?_
  · refine Finset.sum_congr rfl fun k _ => ?_
    rw [val_main_v38_apply]
    have e1 : lidx_main_v39 (ix2 e o) k = ix2 e k :=
      funext fun a => by match a with | ⟨0, _⟩ => rfl | ⟨1, _⟩ => rfl
    have e2 : idx_main_v38 (ridx_main_v39 (ix2 e o) k) = ix2 o k :=
      funext fun a => by match a with | ⟨0, _⟩ => rfl | ⟨1, _⟩ => rfl
    rw [e1, e2]; rfl
  · exact congrArg x3 (funext fun a => by match a with | ⟨0, _⟩ => rfl)

/-! ## Every scaled feature is real -/

theorem nonneg_real {x : EReal} (h : IsReal x) (h0 : 0 ≤ x) : ∃ r : ℝ, 0 ≤ r ∧ x = (r : EReal) := by
  obtain ⟨r, rfl⟩ := h; exact ⟨r, EReal.coe_nonneg.mp h0, rfl⟩

/-- A degree is a real number that is not negative. -/
theorem deg_real (x1 : Edges) (j : S100000.Idx) : ∃ r : ℝ, 0 ≤ r ∧ deg x1 j = (r : EReal) := by
  obtain ⟨n, rfl⟩ : ∃ n : Fin 100000, j = ix1 n := ⟨j 0, eq_ix1 j⟩
  rw [deg_apply]
  exact nonneg_real (IsReal.sum _ _ fun _ _ => IsReal.one) (Finset.sum_nonneg fun _ _ => zero_le_one)

/-- The normaliser 1 / (sqrt(deg·deg) + eps) is a real number: a square root of a real that is not negative, plus a
    positive real, is a positive real. -/
theorem norm_real (x1 : Edges) (j : S1600000.Idx) : IsReal (val_main_v27 (F := Ideal) x1 j) := by
  rw [val_main_v27_apply, val_main_v26_apply, val_main_cst_5_apply, val_main_v25_apply, val_main_v24_apply,
    val_main_cst_4_apply, val_main_v23_apply, val_main_v22_apply]
  obtain ⟨a, ha0, ha⟩ : ∃ r : ℝ, 0 ≤ r ∧ val_main_v14 (F := Ideal) x1 j = (r : EReal) :=
    deg_real x1 (gather_S100000_S1600000x1_S1600000_n_0_n_n_0_1_1.operandIdx j (val_main_v13 (F := Ideal) x1))
  obtain ⟨b, hb0, hb⟩ : ∃ r : ℝ, 0 ≤ r ∧ val_main_v21 (F := Ideal) x1 j = (r : EReal) :=
    deg_real x1 (gather_S100000_S1600000x1_S1600000_n_0_n_n_0_1_1.operandIdx j (val_main_v20 (F := Ideal) x1))
  obtain ⟨ε, hε0, hε⟩ := eps_pos
  rw [ha, hb]
  show IsReal (Ideal.div (Ideal.ofBits .f32 0x3F800000#32)
    (Ideal.sqrt ((a : EReal) * (b : EReal)) + Ideal.ofBits .f32 0x322BCC77#32))
  rw [hε, Ideal.ofBits_one_f32, ← EReal.coe_mul, Ideal.sqrt_coe, if_neg (not_lt.mpr (mul_nonneg ha0 hb0)),
    ← EReal.coe_add]
  exact isReal_div_coe IsReal.one (ne_of_gt (add_pos_of_nonneg_of_pos (Real.sqrt_nonneg _) hε0))

/-- A scaled feature is real when the features are. -/
theorem scaled_real (x0 : Feat) (x1 : Edges) (h0 : ∀ i, IsReal (x0 i)) (j : S1600000x64.Idx) :
    IsReal (scaled x0 x1 j) := by
  unfold scaled
  rw [val_main_v37_apply, val_main_v36_apply, val_main_v35_apply]
  have hg : val_main_v34 (F := Ideal) x0 x1 j
      = x0 (gather_S100000x64_S1600000x1_S1600000x64_1_0_n_n_0_1_164.operandIdx j (val_main_v33 (F := Ideal) x1)) := rfl
  rw [hg]
  exact (h0 _).mul (norm_real x1 _)

/-! ## The kernel's arrangement is the reference's -/

/-- Aggregate first, one product with the transposed weights, the bias once per incoming edge: entry (n, o) is the
    reference's, when features, weights and bias are real. -/
theorem aggregated_apply (x0 : Feat) (x1 : Edges) (x2 : Weights) (x3 : Bias) (h0 : ∀ i, IsReal (x0 i))
    (h2 : ∀ i, IsReal (x2 i)) (h3 : ∀ i, IsReal (x3 i)) (n : Fin 100000) (o : Fin 64) :
    (∑ k : Fin 64, agg x0 x1 (ix2 n k) * x2 (ix2 o k)) + deg x1 (ix1 n) * x3 (ix1 o) = outAt x0 x1 x2 x3 n o := by
  unfold outAt
  refine Eq.trans ?_ (segment_law (edgesInto x1 n) (fun e k => scaled x0 x1 (ix2 e k)) (fun k => x2 (ix2 o k)) (x3 (ix1 o))
    (fun e k => scaled_real x0 x1 h0 _) (fun k => h2 _) (h3 _)).symm
  rw [deg_apply]
  refine congrArg₂ (· + ·) ?_ rfl
  exact Finset.sum_congr rfl fun k _ => by rw [agg_apply]

end Cert.Messages

end
-- ==== Proof.LibPlainDot.lean ====
/-
  A plain matrix product, M×K by K×N, at the ideal values, read at an index as the sum over the contracted coordinate of
  the products of the operands' entries — for the vector unit's `tpu.matmul` into the zero accumulator and for the host's
  `dot_general` alike. The contraction has one axis, of extent K: its index is that one coordinate (`contrE`), the left
  operand's index at (r, c) and k is (r, k), the right operand's is (k, c).
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

variable {M K N : Nat}

/-- The one-axis contraction index of a plain product is its coordinate. -/
def contrE (M K N : Nat) : (DotDims.plain M K N).contr.Idx ≃ Fin K :=
  contrEquiv1 (DotDims.plain M K N) K rfl rfl

theorem contrE_symm_val (k : Fin K) :
    ((contrE M K N).symm k ⟨0, by have h : (DotDims.plain M K N).contr.rank = 1 := rfl; omega⟩ : ℕ) = k.val :=
  contrEquiv1_symm_val (DotDims.plain M K N) K rfl rfl k

/-- The left operand is read at (row of the result, contracted coordinate). -/
theorem lhsIdx_eq (r : Fin M) (c : Fin N) (k : Fin K) :
    (DotDims.plain M K N).lhsIdx (ix2 r c) ((contrE M K N).symm k) = ix2 r k := by
  funext a
  apply Fin.ext
  match a with
  | ⟨0, _⟩ => rfl
  | ⟨1, _⟩ => exact ((DotDims.plain M K N).lhsIdx_val_of_single (cl := 1) rfl (ix2 r c) _).trans (contrE_symm_val k)

/-- The right operand is read at (contracted coordinate, column of the result). -/
theorem rhsIdx_eq (r : Fin M) (c : Fin N) (k : Fin K) :
    (DotDims.plain M K N).rhsIdx (ix2 r c) ((contrE M K N).symm k) = ix2 k c := by
  funext a
  apply Fin.ext
  match a with
  | ⟨0, _⟩ => exact ((DotDims.plain M K N).rhsIdx_val_of_single (cr := 0) rfl (ix2 r c) _).trans (contrE_symm_val k)
  | ⟨1, _⟩ => rfl

/-- The sum over the contraction index of a plain product, re-indexed by the contracted coordinate. -/
theorem sum_contr (f : (⟨2, ![M, K]⟩ : Shape).Idx → EReal) (g : (⟨2, ![K, N]⟩ : Shape).Idx → EReal) (r : Fin M) (c : Fin N) :
    (∑ k : (DotDims.plain M K N).contr.Idx, f ((DotDims.plain M K N).lhsIdx (ix2 r c) k) * g ((DotDims.plain M K N).rhsIdx (ix2 r c) k))
      = ∑ k : Fin K, f (ix2 r k) * g (ix2 k c) := by
  rw [← Equiv.sum_comp (contrE M K N).symm]
  exact Finset.sum_congr rfl fun k _ => by rw [lhsIdx_eq, rhsIdx_eq]

/-- `tpu.matmul` into the zero accumulator, at (r, c). -/
theorem matmul_zero_apply {φ₁ φ₂ : FTy} (prec : Option ContractPrecision)
    (x : FVec Ideal ⟨2, ![M, K]⟩ φ₁) (w : FVec Ideal ⟨2, ![K, N]⟩ φ₂) (r : Fin M) (c : Fin N) :
    FloatOps.matmul (DotDims.plain M K N) prec x w (constant (⟨2, ![M, N]⟩ : Shape) .f32 0x00000000#32) (ix2 r c)
      = ∑ k : Fin K, x (ix2 r k) * w (ix2 k c) :=
  (Ideal.matmul_constant_zero_apply (DotDims.plain M K N) prec x w (ix2 r c)).trans (sum_contr x w r c)

/-- The host's `dot_general`, at (r, c). -/
theorem dotGeneral_apply {φ₁ φ₂ : FTy} (prec : Option ContractPrecision) (sched : HostSchedule)
    (x : FVec Ideal ⟨2, ![M, K]⟩ φ₁) (w : FVec Ideal ⟨2, ![K, N]⟩ φ₂) (r : Fin M) (c : Fin N) :
    FloatOps.dotGeneral (DotDims.plain M K N) prec sched x w (ix2 r c) = ∑ k : Fin K, x (ix2 r k) * w (ix2 k c) :=
  (Ideal.dotGeneral_apply (DotDims.plain M K N) prec sched x w (ix2 r c)).trans (sum_contr x w r c)

end Idealize.ShloMosaic.PlainDot

end
-- ==== Proof.Staged.lean ====
/-
  The body's arithmetic at an index, and the two arrays the host writes in front of the tiled call.

  On one block the body computes x·Wᵀ + y: entry (p, o) is the dot product of row p of the first staged block with row
  o of the weights, plus the second staged block's entry (the narrowing to bf16 in front of the product is the identity
  at the ideal values, and the product accumulates into zero). The first staged array is the scatter-add of the scaled
  feature rows into their target nodes, the aggregated features; the second is the product of the degrees down the rows
  and the bias along them, read at (n, o) as deg(n)·b(o).
-/
import proofs.«130056_j52046413693115_2_alg».proof.Proof.Gen.KernelIdeal.Value
import proofs.«130056_j52046413693115_2_alg».proof.Proof.Messages
import proofs.«130056_j52046413693115_2_alg».proof.Proof.LibPlainDot
import Idealize.ShloMosaic.Lib.Pipeline.Value
import Idealize.ShloMosaic.Lib.ValueIdx
import Idealize.ShloMosaic.Lib.StableHlo.Run

noncomputable section

open scoped BigOperators

namespace Cert.KernelIdeal.AggValue

open Cert.KernelIdeal Cert.KernelIdeal.Gen Idealize.ShloMosaic Idealize.ShloMosaic.TcCoe Idealize.SL.Sem
open Idealize.ShloMosaic.ValueIdx Idealize.ShloMosaic.StableHlo Cert.RealValued
open Idealize.ShloMosaic.Pipeline (Dat)

variable (m : (ℓ : Loc nD τ sig) → Buf (Elt Ideal) ℓ) (ρ : Dev nD → PrngReg)

/-! ## The body's arithmetic at an index -/

/-- One block: entry (p, o) is the dot product of row p of the staged features with row o of the weights, plus the
    staged bias term's entry. -/
theorem payload_apply (x0 : Vec Ideal S5000x64 .f32) (w : Vec Ideal S64x64 .f32) (x1 : Vec Ideal S5000x64 .f32)
    (p : Fin 5000) (o : Fin 64) :
    k0_pay1 (F := Ideal) x0 w x1 (ix2 p o) = (∑ k : Fin 64, x0 (ix2 p k) * w (ix2 o k)) + x1 (ix2 p o) := by
  unfold k0_pay1
  show FloatOps.matmul (F := Ideal) (DotDims.plain 5000 64 64) none (shapeCast S5000x64 x0 shapeCasts_S5000x64_S5000x64)
      (transpose S64x64 [1, 0] w transposes_S64x64_p1_0_S64x64) (constant (⟨2, ![5000, 64]⟩ : Shape) .f32 0x00000000#32) (ix2 p o)
      + shapeCast S5000x64 x1 shapeCasts_S5000x64_S5000x64 (ix2 p o) = _
  rw [PlainDot.matmul_zero_apply, shapeCast_self, shapeCast_self]
  refine congrArg₂ (· + ·) (Finset.sum_congr rfl fun k _ => congrArg₂ (· * ·) rfl ?_) rfl
  exact transpose_apply [1, 0] w transposes_S64x64_p1_0_S64x64 (ix2 k o) (ix2 o k)
    (fun b => match b with | ⟨0, _⟩ => rfl | ⟨1, _⟩ => rfl)

/-! ## The two arrays the host writes in front of the call -/

/-- The bias term: the degrees down the rows times the bias along them. -/
def biasFull (d : FVec Ideal S100000 .f32) (b : FVec Ideal S64 .f32) : FVec Ideal S100000x64 .f32 :=
  mulf (broadcastInDim S100000x64 ![0, 1] bcast_S100000x1_S100000x64_0_1 (broadcastInDim S100000x1 ![0] bcast_S100000_S100000x1_0 d))
    (broadcastInDim S100000x64 ![0, 1] bcast_S1x64_S100000x64_0_1 (broadcastInDim S1x64 ![1] bcast_S64_S1x64_1 b))

theorem biasFull_apply (d : FVec Ideal S100000 .f32) (b : FVec Ideal S64 .f32) (n : Fin 100000) (o : Fin 64) :
    biasFull d b (ix2 n o) = d (ix1 n) * b (ix1 o) := by
  unfold biasFull
  show broadcastInDim S100000x64 ![0, 1] bcast_S100000x1_S100000x64_0_1 (broadcastInDim S100000x1 ![0] bcast_S100000_S100000x1_0 d) (ix2 n o)
      * broadcastInDim S100000x64 ![0, 1] bcast_S1x64_S100000x64_0_1 (broadcastInDim S1x64 ![1] bcast_S64_S1x64_1 b) (ix2 n o) = _
  refine congrArg₂ (· * ·) ?_ ?_
  · refine (broadcastInDim_apply _ bcast_S100000x1_S100000x64_0_1 _ (ix2 n o) (ix2 n (0 : Fin 1)) (fun a => match a with
      | ⟨0, _⟩ => by show n.val = if (100000 : Nat) = 1 then 0 else n.val; rw [if_neg (by decide)]
      | ⟨1, _⟩ => by show 0 = if (1 : Nat) = 1 then 0 else o.val; rw [if_pos rfl])).trans ?_
    exact broadcastInDim_apply _ bcast_S100000_S100000x1_0 d (ix2 n (0 : Fin 1)) (ix1 n) (fun a => match a with
      | ⟨0, _⟩ => by show n.val = if (100000 : Nat) = 1 then 0 else n.val; rw [if_neg (by decide)])
  · refine (broadcastInDim_apply _ bcast_S1x64_S100000x64_0_1 _ (ix2 n o) (ix2 (0 : Fin 1) o) (fun a => match a with
      | ⟨0, _⟩ => by show 0 = if (1 : Nat) = 1 then 0 else n.val; rw [if_pos rfl]
      | ⟨1, _⟩ => by show o.val = if (64 : Nat) = 1 then 0 else o.val; rw [if_neg (by decide)])).trans ?_
    exact broadcastInDim_apply _ bcast_S64_S1x64_1 b (ix2 (0 : Fin 1) o) (ix1 o) (fun a => match a with
      | ⟨0, _⟩ => by show o.val = if (64 : Nat) = 1 then 0 else o.val; rw [if_neg (by decide)])

set_option maxRecDepth 8192 in
set_option maxHeartbeats 2000000 in
/-- The first staged array is the aggregated features of the arguments. -/
theorem staged_agg (c : Dev nD) :
    (V m c main_v40 : S100000x64.Idx → EReal)
      = Cert.Messages.agg (m ((c : Thread nD τ).loc main_arg0)) (m ((c : Thread nD τ).loc main_arg1)) := by
  dsimp only [Gen.V, Gen.hostOps0]; after_results_simp <;> rfl

set_option maxRecDepth 8192 in
set_option maxHeartbeats 2000000 in
/-- The second staged array is the bias term of the arguments. -/
theorem staged_bias (c : Dev nD) :
    (V m c main_v45 : S100000x64.Idx → EReal)
      = biasFull (Cert.Messages.deg (m ((c : Thread nD τ).loc main_arg1))) (m ((c : Thread nD τ).loc main_arg3)) := by
  dsimp only [Gen.V, Gen.hostOps0]; after_results_simp <;> rfl

end Cert.KernelIdeal.AggValue

end
-- ==== Proof.KernelValue.lean ====
/-
  The kernel's result array, as one function of the arguments.

  Block t of the output holds rows 5000·t … 5000·t + 4999. The body multiplies the block's rows of the aggregated
  features by the transposed weights and adds the block's rows of the bias term, so entry (n, o) of the whole array is
  Σ_k agg(n, k)·W(o, k) + bias(n, o): it depends on row n of the two staged arrays only, whatever those arrays hold, and
  the twenty blocks cover every row. With the staged arrays the host wrote — the aggregated scaled features and
  deg(n)·b(o) — and real features, weights and bias, this is the reference's entry: the linear layer commutes with the
  sum over a node's incoming edges.
-/
import proofs.«130056_j52046413693115_2_alg».proof.Proof.Gen.KernelIdeal.Value
import proofs.«130056_j52046413693115_2_alg».proof.Proof.Messages
import proofs.«130056_j52046413693115_2_alg».proof.Proof.Staged
import Idealize.ShloMosaic.Lib.Pipeline.Value
import Idealize.ShloMosaic.Lib.ValueIdx
import Idealize.ShloMosaic.Lib.StableHlo.Run

noncomputable section

open scoped BigOperators

namespace Cert.KernelIdeal.AggValue

open Cert.KernelIdeal Cert.KernelIdeal.Gen Idealize.ShloMosaic Idealize.ShloMosaic.TcCoe Idealize.SL.Sem
open Idealize.ShloMosaic.ValueIdx Idealize.ShloMosaic.StableHlo Cert.RealValued
open Idealize.ShloMosaic.Pipeline (Dat)

variable (m : (ℓ : Loc nD τ sig) → Buf (Elt Ideal) ℓ) (ρ : Dev nD → PrngReg)

/-- The same at any index of the block. -/
theorem payload_at (x0 : Vec Ideal S5000x64 .f32) (w : Vec Ideal S64x64 .f32) (x1 : Vec Ideal S5000x64 .f32)
    (i : S5000x64.Idx) :
    k0_pay1 (F := Ideal) x0 w x1 i = (∑ k : Fin 64, x0 (ix2 (i 0) k) * w (ix2 (i 1) k)) + x1 i := by
  obtain ⟨p, q, rfl⟩ : ∃ (p : Fin 5000) (q : Fin 64), i = ix2 p q := ⟨i 0, i 1, eq_ix2 i⟩
  exact payload_apply x0 w x1 p q

/-! ## From the blocks to the array -/

theorem hz : (![0, 0] : Fin 2 → Nat) = fun _ => 0 := funext fun a => by fin_cases a <;> rfl

/-- Entry (n, o) from the two staged arrays and the weights. -/
def entry (a bias : FVec Ideal S100000x64 .f32) (W : FVec Ideal S64x64 .f32) (n : Fin 100000) (o : Fin 64) : EReal :=
  (∑ k : Fin 64, a (ix2 n k) * W (ix2 o k)) + bias (ix2 n o)

/-- The whole result array from the two staged arrays and the weights. -/
def result (a bias : FVec Ideal S100000x64 .f32) (W : FVec Ideal S64x64 .f32) : S100000x64.Idx → EReal :=
  fun i => entry a bias W (i 0) (i 1)

/-- The index maps over the twenty grid points: the two row-blocked inputs move with the output, block t is the t-th
    block of rows, and no map moves along the columns; the weights stay at block (0, 0). -/
theorem idx_facts : ∀ t : Fin cfg0.N, win0_0.index t (0 : Fin 2) = win0_3.index t (0 : Fin 2) ∧ win0_0.index t (1 : Fin 2) = 0
    ∧ win0_1.index t (0 : Fin 2) = win0_3.index t (0 : Fin 2) ∧ win0_1.index t (1 : Fin 2) = 0
    ∧ win0_2.index t (0 : Fin 2) = 0 ∧ win0_2.index t (1 : Fin 2) = 0
    ∧ win0_3.index t (1 : Fin 2) = 0 ∧ win0_3.index t (0 : Fin 2) = t.val :=
  (by decide +kernel : ∀ t : Fin grid0.N, _)

/-- One block, for any contents of the two staged arrays and the weights: the body's result on the blocks the point
    reads is the point's block of the result array. -/
theorem block_eq (A B : FVec Ideal S100000x64 .f32) (W : FVec Ideal S64x64 .f32) (t : Fin cfg0.N) :
    (cfg0.win 3).cut (grid0.coords t)
        (k0_pay1 (F := Ideal) (((cfg0.win 0).blk t).view.read (Elt Ideal) A) (((cfg0.win 2).blk t).view.read (Elt Ideal) W)
          (((cfg0.win 1).blk t).view.read (Elt Ideal) B))
      = ((cfg0.win 3).blk t).view.read (Elt Ideal) (result A B W) := by
  obtain ⟨e00, e01, e10, e11, e20, e21, e31, e30⟩ := idx_facts t
  funext j
  show k0_pay1 (F := Ideal) (fun y => A (((cfg0.win 0).blk t).view.emb y)) (fun y => W (((cfg0.win 2).blk t).view.emb y))
        (fun y => B (((cfg0.win 1).blk t).view.emb y)) ((cfg0.win 3).xinj (grid0.coords t) j)
      = result A B W (((cfg0.win 3).blk t).view.emb j)
  refine (payload_at _ _ _ _).trans ?_
  unfold result entry
  refine congrArg₂ (· + ·) (Finset.sum_congr rfl fun k _ => congrArg₂ (· * ·) ?_ ?_) ?_
  · show A (((cfg0.win 0).blk t).view.emb (ix2 (((cfg0.win 3).xinj (grid0.coords t) j) 0) k))
        = A (ix2 ((((cfg0.win 3).blk t).view.emb j) 0) k)
    refine congrArg A (funext fun a => Fin.ext ?_)
    match a with
    | ⟨0, _⟩ => show win0_0.index t (0 : Fin 2) * 5000 + 1 * (j 0).val = win0_3.index t (0 : Fin 2) * 5000 + 1 * (j 0).val; omega
    | ⟨1, _⟩ => show win0_0.index t (1 : Fin 2) * 64 + 1 * k.val = k.val; omega
  · show W (((cfg0.win 2).blk t).view.emb (ix2 (((cfg0.win 3).xinj (grid0.coords t) j) 1) k))
        = W (ix2 ((((cfg0.win 3).blk t).view.emb j) 1) k)
    refine congrArg W (funext fun a => Fin.ext ?_)
    match a with
    | ⟨0, _⟩ => show win0_2.index t (0 : Fin 2) * 64 + 1 * (j 1).val = win0_3.index t (1 : Fin 2) * 64 + 1 * (j 1).val; omega
    | ⟨1, _⟩ => show win0_2.index t (1 : Fin 2) * 64 + 1 * k.val = k.val; omega
  · show B (((cfg0.win 1).blk t).view.emb ((cfg0.win 3).xinj (grid0.coords t) j))
        = B (ix2 ((((cfg0.win 3).blk t).view.emb j) 0) ((((cfg0.win 3).blk t).view.emb j) 1))
    refine congrArg B (funext fun a => Fin.ext ?_)
    match a with
    | ⟨0, _⟩ => show win0_1.index t (0 : Fin 2) * 5000 + 1 * (j 0).val = win0_3.index t (0 : Fin 2) * 5000 + 1 * (j 0).val; omega
    | ⟨1, _⟩ => show win0_1.index t (1 : Fin 2) * 64 + 1 * (j 1).val = win0_3.index t (1 : Fin 2) * 64 + 1 * (j 1).val; omega

/-- What point t writes back is block t of the result array. -/
theorem flushed_eq (c : Dev nD) (t : Fin cfg0.N) :
    (dats m 0 c).flushed 3 t
      = ((cfg0.win 3).blk t).view.read (Elt Ideal) (result (V m c main_v40) (V m c main_v45) (V m c main_arg2)) := by
  rw [Value.flushed3]
  unfold out0_3
  rw [View.canon_unit_zero hz]
  simp only [View.ld_unit_zero (S := S5000x64) hz, View.ld_unit_zero (S := S64x64) hz]
  exact block_eq (V m c main_v40) (V m c main_v45) (V m c main_arg2) t
/-- An index of the array is in point t's block iff each coordinate is in the block's range on its axis. -/
theorem mem_blk (t : Fin cfg0.N) (i : S100000x64.Idx) :
    i ∈ ((cfg0.win 3).blk t).view.set ↔ ∀ a : Fin 2, win0_3.index t a * S5000x64.size a ≤ (i a).val
      ∧ (i a).val < win0_3.index t a * S5000x64.size a + S5000x64.size a := by
  show i ∈ ((View.whole main_v46).slice (win0_3.rect t)).set ↔ _
  rw [View.set_slice_whole, Rect.mem_set_unit]
  exact Iff.rfl

/-- Row n lies in block n / 5000: the twenty blocks cover the array. -/
theorem cover (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  have ht : (i 0).val / 5000 < 20 := by omega
  obtain ⟨-, -, -, -, -, -, e31, e30⟩ := idx_facts ⟨(i 0).val / 5000, ht⟩
  refine ⟨⟨(i 0).val / 5000, ht⟩, flush0_3 _, ?_⟩
  rw [mem_blk]
  intro a
  match a with
  | ⟨0, _⟩ =>
    show win0_3.index ⟨(i 0).val / 5000, ht⟩ (0 : Fin 2) * 5000 ≤ (i 0).val
      ∧ (i 0).val < win0_3.index ⟨(i 0).val / 5000, ht⟩ (0 : Fin 2) * 5000 + 5000
    rw [e30]; show (i 0).val / 5000 * 5000 ≤ (i 0).val ∧ (i 0).val < (i 0).val / 5000 * 5000 + 5000; omega
  | ⟨1, _⟩ =>
    show win0_3.index ⟨(i 0).val / 5000, ht⟩ (1 : Fin 2) * 64 ≤ (i 1).val
      ∧ (i 1).val < win0_3.index ⟨(i 0).val / 5000, ht⟩ (1 : Fin 2) * 64 + 64
    rw [e31]; omega

/-- The output array after the run, from the staged arrays as the call finds them. -/
theorem final (c : Dev nD) :
    (dats m 0 c).arrAt 3 cfg0.N = result (V m c main_v40) (V m c main_v45) (V m c main_arg2) :=
  (dats m 0 c).arrAt_eq_of_cover 3 _ (fun t _ => flushed_eq m c t) cover

/-! ## In terms of the arguments -/

/-- With real features, weights and bias the result array is the reference's function of the arguments. -/
theorem result_eq (c : Dev nD)
    (h0 : ∀ i : S100000x64.Idx, IsReal ((m ((c : Thread nD τ).loc main_arg0) : S100000x64.Idx → EReal) i))
    (h2 : ∀ i : S64x64.Idx, IsReal ((m ((c : Thread nD τ).loc main_arg2) : S64x64.Idx → EReal) i))
    (h3 : ∀ i : S64.Idx, IsReal ((m ((c : Thread nD τ).loc main_arg3) : S64.Idx → EReal) i)) :
    result (V m c main_v40) (V m c main_v45) (V m c main_arg2)
      = fun i : S100000x64.Idx => Cert.Messages.outAt (m ((c : Thread nD τ).loc main_arg0)) (m ((c : Thread nD τ).loc main_arg1))
          (m ((c : Thread nD τ).loc main_arg2)) (m ((c : Thread nD τ).loc main_arg3)) (i 0) (i 1) := by
  funext i
  unfold result entry
  rw [staged_agg, staged_bias, V_main_arg2]
  refine (congrArg₂ (· + ·) rfl (biasFull_apply _ _ (i 0) (i 1))).trans ?_
  exact Cert.Messages.aggregated_apply _ _ _ _ h0 h2 h3 (i 0) (i 1)

/-- The kernel's run: the result array ends holding, at (n, o), the sum over the edges into n of the linear layer's
    output o on the edge's scaled feature row; the arguments end unchanged. -/
theorem run
    (hreal : ∀ c : Dev nD,
      (∀ i : S100000x64.Idx, IsReal ((m ((c : Thread nD τ).loc main_arg0) : S100000x64.Idx → EReal) i))
      ∧ (∀ i : S64x64.Idx, IsReal ((m ((c : Thread nD τ).loc main_arg2) : S64x64.Idx → EReal) i))
      ∧ (∀ i : S64.Idx, IsReal ((m ((c : Thread nD τ).loc main_arg3) : S64.Idx → EReal) i))) :
    θ_run defs (onTc (τ := τ) (main (F := Ideal))) ⟨m, fun _ => 0, ρ⟩ fun r => ∀ c : Dev nD,
      r.2.mem ((c : Thread nD τ).loc main_v46)
        = (fun i : S100000x64.Idx => Cert.Messages.outAt (m ((c : Thread nD τ).loc main_arg0)) (m ((c : Thread nD τ).loc main_arg1))
            (m ((c : Thread nD τ).loc main_arg2)) (m ((c : Thread nD τ).loc main_arg3)) (i 0) (i 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans ((final m c).trans
      (result_eq m c (hreal c).1 (hreal c).2.1 (hreal c).2.2)), (h c).2⟩)
    (Value.run_blocks m ρ)

end Cert.KernelIdeal.AggValue

end
-- ==== Proof.lean ====
/-
  Neighbourhood aggregation with symmetric normalisation followed by a linear layer, two ways.

  The reference scales every edge's source feature row by 1 / (sqrt(deg(tgt)·deg(src)) + eps), pushes each scaled row
  through the linear layer x ↦ x·Wᵀ + b, and sums the outputs over the edges into each node. The kernel sums the scaled
  rows over the edges into each node first, then applies the layer once per node — one 64×64 product per row block in
  the tiled call — and adds deg(n)·b, the bias counted once per incoming edge. Over the real numbers the two are equal
  because the layer is linear and the sums are finite; on the extended reals that needs every entry real, which the
  precondition gives for the features, the weights and the bias, and which holds of the degrees (finite counts) and of
  the normaliser (one over a positive real) by themselves. Edges whose target index is out of range are dropped by
  both scatters alike, and out-of-range gather indices are clamped by both programs alike: the index column is the same
  array in both.

  The three frames are the generated ones (the reference's is its generated run with the result dropped); there is no
  idealization rewrite to justify; the value claim puts the kernel's run (its blocks assembled into the array) beside
  the reference's run read one operation at a time.
-/
import proofs.«130056_j52046413693115_2_alg».proof.Defs
import proofs.«130056_j52046413693115_2_alg».proof.Proof.Gen.Kernel
import proofs.«130056_j52046413693115_2_alg».proof.Proof.Gen.Kernel.Skeleton
import proofs.«130056_j52046413693115_2_alg».proof.Proof.Gen.Kernel.Launch
import proofs.«130056_j52046413693115_2_alg».proof.Proof.Gen.Kernel.Points
import proofs.«130056_j52046413693115_2_alg».proof.Proof.Gen.Kernel.Frame
import proofs.«130056_j52046413693115_2_alg».proof.Proof.Gen.KernelIdeal
import proofs.«130056_j52046413693115_2_alg».proof.Proof.Gen.KernelIdeal.Skeleton
import proofs.«130056_j52046413693115_2_alg».proof.Proof.Gen.KernelIdeal.Launch
import proofs.«130056_j52046413693115_2_alg».proof.Proof.Gen.KernelIdeal.Points
import proofs.«130056_j52046413693115_2_alg».proof.Proof.Gen.KernelIdeal.Frame
import proofs.«130056_j52046413693115_2_alg».proof.Proof.Gen.ReferenceIdeal
import proofs.«130056_j52046413693115_2_alg».proof.Proof.Gen.Pre_finite_inputs
import proofs.«130056_j52046413693115_2_alg».proof.Proof.Gen.KernelIdeal.Value
import proofs.«130056_j52046413693115_2_alg».proof.Proof.Gen.ReferenceIdeal.Run
import proofs.«130056_j52046413693115_2_alg».proof.Proof.Gen.ReferenceIdeal.Read
import proofs.«130056_j52046413693115_2_alg».proof.Proof.FiniteArgs
import proofs.«130056_j52046413693115_2_alg».proof.Proof.Messages
import proofs.«130056_j52046413693115_2_alg».proof.Proof.KernelValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- Both programs end with, at (n, o), the sum over the edges into node n of output o of the linear layer on the edge's
    scaled feature row: the kernel by linearity from its aggregated rows, the reference directly. -/
theorem algebraic : Cert.algebraic_KernelIdeal_ReferenceIdeal := by
  intro m ρ m' ρ' hpre hagree
  have hreal := fun c => Cert.FiniteArgs.args_real _ _ _ _ (hpre c)
  refine ⟨_, Cert.KernelIdeal.AggValue.run m ρ hreal, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v45_eq, (hagree c).1, (hagree c).2.1, (hagree c).2.2.1, (hagree c).2.2.2]
  funext i
  exact (congrArg (Cert.ReferenceIdeal.Read.val_main_v45 (F := Ideal) _ _ _ _) (ValueIdx.eq_ix2 i)).trans
    (Cert.Messages.reference_apply _ _ _ _ (i 0) (i 1))

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
